-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S2x1x1 : Shape := ⟨3, ![2, 1, 1]⟩
abbrev S8192x128 : Shape := ⟨2, ![8192, 128]⟩
abbrev S1x1x1 : Shape := ⟨3, ![1, 1, 1]⟩
abbrev S8x128 : Shape := ⟨2, ![8, 128]⟩
abbrev S1024x8x128 : Shape := ⟨3, ![1024, 8, 128]⟩
abbrev S8 : Shape := ⟨1, ![8]⟩
abbrev S8x1 : Shape := ⟨2, ![8, 1]⟩
abbrev S1 : Shape := ⟨1, ![1]⟩
abbrev S1x1 : Shape := ⟨2, ![1, 1]⟩
abbrev S2 : Shape := ⟨1, ![2]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x1, .f32⟩
  | .local _ .vmem, ⟨5, _⟩ => ⟨S1x1x1, .f32⟩
  | .local _ .vmem, ⟨6, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.Closing.lean ====
/-
  The lines both programs end with.

  Each program, having a scalar s in hand, adds the constant 0 to it and divides by the constant 2^25 (the f32 words
  0x00000000 and 0x4C000000, the same on both sides, so neither is ever evaluated).  `closing s` is that scalar result.
-/
import Idealize.ShloMosaic.PureOps.Ideal

noncomputable section

namespace Cert.Closing

open Idealize.ShloMosaic

/-- (s + 0) / 2^25, as the one entry of a rank-0 array. -/
def closing (s : EReal) : (⟨0, ![]⟩ : Shape).Idx → EReal := fun _ =>
  FloatOps.hostDivf (F := Ideal) (φ := .f32) (FloatOps.addf (F := Ideal) (φ := .f32) s (Ideal.ofBits .f32 0x00000000#32))
    (Ideal.ofBits .f32 0x4C000000#32)

end Cert.Closing

end
-- ==== Proof.RefRead.lean ====
/-
  The reference's result as one closed expression of the two argument arrays.

  The reference multiplies the two flat arrays entry by entry (second argument times first), takes cosines, sums all
  2^25 of them from the initial value 0, adds 0 and divides by 2^25.  Over the extended reals its result is therefore
  the closing lines applied to 0 + the sum over every position j of cos (w j * x j).
-/
import proofs.«173688_j19258633355996_2_alg».proof.Defs
import proofs.«173688_j19258633355996_2_alg».proof.Proof.Gen.ReferenceIdeal.Run
import proofs.«173688_j19258633355996_2_alg».proof.Proof.Gen.ReferenceIdeal.Read
import proofs.«173688_j19258633355996_2_alg».proof.Proof.Closing

noncomputable section

open scoped BigOperators

namespace Cert.ReferenceIdeal.RefValue

open Cert.ReferenceIdeal Cert.ReferenceIdeal.Gen Cert.ReferenceIdeal.Read Cert.Closing Idealize.ShloMosaic

/-- The term the reference's run ends at is the closing lines of 0 + the sum of the cosines of the products. -/
theorem result_eq (x0 x1 : (⟨S33554432, .f32⟩ : BufTy).Contents (Elt Ideal)) :
    Host.divf (addf (Host.reduceAdd (Host.cos (mulf x1 x0)) (constant (F := Ideal) S_ .f32 0x00000000#32) reducesTo_S33554432_S_d0 h_S_)
        (constant (F := Ideal) S_ .f32 0x00000000#32)) (constant (F := Ideal) S_ .f32 0x4C000000#32)
      = closing (Ideal.ofBits .f32 0x00000000#32 + ∑ j : S33554432.Idx, Ideal.cos (x1 j * x0 j)) := by
  rw [val_main_v4_eq]
  funext i
  rw [val_main_v4_apply, val_main_v3_apply, val_main_v2_apply]
  rfl

end Cert.ReferenceIdeal.RefValue

end
-- ==== Proof.KernelPieces.lean ====
/-
  What one step of the kernel leaves behind, case by case.

  The kernel visits 32 points, 16 per half of the rows.  At every point it adds, into an 8 x 128 accumulator it keeps
  between points, the column sums (over the 1024 groups of eight rows) of the cosines of the products of its two
  8192 x 128 input blocks.  At the first point of a half it zeroes the accumulator first; at the last point of a half
  it also totals the accumulator into the half's output cell.  Here each case's effect is read off as a value: the
  accumulator ends at the one payload `k0_pay2` of the two blocks and the accumulator's earlier contents (zeros at a
  first point), and the output cell at the payload `k0_pay3` of that new accumulator.  Every statement holds for any
  float values.
-/
import proofs.«173688_j19258633355996_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block of zeros the first step of a half stores into the accumulator. -/
abbrev zeroAcc : Vec F S8x128 .f32 := k0_pay1 (F := F)

/-- A step that is neither the first nor the last of its half leaves in the accumulator, which held `xs0`, the one value
    it stores: `xs0` plus the column sums of the cosines of the two input blocks' products. -/
theorem scratch_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S8x128 .f32) (harg5 : arg5.IsWhole) (hc0 : ¬cond0_0 i) (hc1 : ¬cond0_1 i)
    (x0 : Vec F S8192x128 .f32) (x1 : Vec F S8192x128 .f32) (xs0 : Vec F S8x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S8192x128) hz2, View.ld_unit_zero (S := S8x128) hz2]

/-- The last step of a half leaves the same in the accumulator, -/
theorem scratch_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S8x128 .f32) (harg5 : arg5.IsWhole) (hc0 : ¬cond0_0 i) (hc1 : cond0_1 i)
    (x0 : Vec F S8192x128 .f32) (x1 : Vec F S8192x128 .f32) (xs0 : Vec F S8x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S8192x128) hz2, View.ld_unit_zero (S := S8x128) hz2]

/-- and stores into the output block the total of the accumulator it has just written: the accumulator is read back
    after the store, so what is totalled is the updated value. -/
theorem out_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S8x128 .f32) (harg5 : arg5.IsWhole) (hc0 : ¬cond0_0 i) (hc1 : cond0_1 i)
    (x0 : Vec F S8192x128 .f32) (x1 : Vec F S8192x128 .f32) (xs0 : Vec F S8x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S8x128) _ hz2]
  simp only [View.readAt_eq_ld, harg2.read_unread, harg3.read_unread, harg5.read_unread,
    View.ld_unit_zero (S := S8192x128) hz2, View.ld_unit_zero (S := S8x128) hz2]

/-- The first step of a half stores zeros into the accumulator, reads them back, and leaves zeros plus its column sums. -/
theorem scratch_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S8x128 .f32) (harg5 : arg5.IsWhole) (hc0 : cond0_0 i) (hc1 : ¬cond0_1 i)
    (x0 : Vec F S8192x128 .f32) (x1 : Vec F S8192x128 .f32) :
    sout0_A_0 c i arg2 harg2 arg3 harg3 arg4 harg4 arg5 harg5 hc0 hc1 x0 x1 = k0_pay2 x0 x1 zeroAcc := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread,
    View.ld_unit_zero (S := S8192x128) hz2]

end Cert.KernelIdeal.Pieces

end
-- ==== Proof.PointValues.lean ====
/-
  What the accumulator and the output cell hold after each point, in terms of the kernel's stored values.

  The 32 points fall in three kinds by their step inside a half: step 0 (zero the accumulator, then add), steps 1–14
  (add), step 15 (add, then total into the output cell).  After a point of step 0 the accumulator is the update of the
  zero block by the point's two input blocks; after any other point it is the update of what the point before left;
  and after a point of step 15 the output cell holds the total of the accumulator that point leaves.  For any float
  values.
-/
import proofs.«173688_j19258633355996_2_alg».proof.Proof.KernelPieces

noncomputable section

open Idealize.ShloMosaic Idealize.ShloMosaic.TcCoe Idealize.SL.Sem
open Idealize.ShloMosaic.Pipeline (Dat)

namespace Cert.KernelIdeal.PointValues

open Cert.KernelIdeal Cert.KernelIdeal.Gen Cert.KernelIdeal.Pieces

variable {F : FTy → Type} [FloatOps F]
variable (m : (ℓ : Loc nD τ sig) → Buf (Elt F) ℓ)

/-- What the point before t left in the accumulator. -/
abbrev prevAcc (c : Dev nD) (t : Fin cfg0.N) : Vec F S8x128 .f32 :=
  (outsAt0 m c (t.val - 1) (Nat.lt_of_le_of_lt (Nat.sub_le _ _) t.isLt)).2

/-- After the first point of a half: the zero block updated by the point's blocks. -/
theorem acc_first (c : Dev nD) (t : Fin cfg0.N) (h0 : t.val % 16 = 0) (h1 : ¬t.val % 16 = 15) :
    (outsAt0 m c t.val t.isLt).2 = k0_pay2 (iblk m c 0 t) (iblk m c 1 t) zeroAcc := by
  rw [outsAt0_A m c t h0 h1]
  exact scratch_A (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After a middle point: what the point before left, updated by the point's blocks. -/
theorem acc_middle (c : Dev nD) (t : Fin cfg0.N) (h0 : ¬t.val % 16 = 0) (h1 : ¬t.val % 16 = 15) :
    (outsAt0 m c t.val t.isLt).2 = k0_pay2 (iblk m c 0 t) (iblk m c 1 t) (prevAcc m c t) := by
  rw [outsAt0_B m c t h0 h1]
  exact scratch_B (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (prevAcc m c t)

/-- After the last point of a half: the same update, -/
theorem acc_last (c : Dev nD) (t : Fin cfg0.N) (h0 : ¬t.val % 16 = 0) (h1 : t.val % 16 = 15) :
    (outsAt0 m c t.val t.isLt).2 = k0_pay2 (iblk m c 0 t) (iblk m c 1 t) (prevAcc m c t) := by
  rw [outsAt0_C m c t h0 h1]
  exact scratch_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (prevAcc m c t)

/-- and the output cell holds the total of that accumulator. -/
theorem cell_last (c : Dev nD) (t : Fin cfg0.N) (h0 : ¬t.val % 16 = 0) (h1 : t.val % 16 = 15) :
    (outsAt0 m c t.val t.isLt).1 = k0_pay3 ((outsAt0 m c t.val t.isLt).2) := by
  rw [acc_last m c t h0 h1, outsAt0_C m c t h0 h1]
  exact out_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (prevAcc m c t)

end Cert.KernelIdeal.PointValues

end
-- ==== Proof.Payload.lean ====
/-
  The kernel's three stored values read at an index, over the extended reals.

  * the zero block: every entry is 0;
  * the accumulator update: at sublane b and lane l, the old accumulator entry plus the sum, over the 1024 groups a of
    eight rows, of cos (x (8a + b, l) * w (8a + b, l)) — the 8192 x 128 block of cosines is viewed as 1024 x 8 x 128 and
    summed along its leading axis, and (a, b, l) of that view is row 8a + b, lane l of the block (same row-major place);
  * the output cell: the sum over the eight sublanes of the sums over the 128 lanes of the accumulator — two
    reductions in a row, each from the additive neutral element, so no initial term is added.
-/
import proofs.«173688_j19258633355996_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- Row `8a + b` of a block of 8192 rows: row b of the a-th group of eight. -/
abbrev rowOf (a : Fin 1024) (b : Fin 8) : Fin 8192 :=
  ⟨a.val * 8 + b.val, by have := a.isLt; have := b.isLt; omega⟩

/-- The zero block is zero everywhere. -/
theorem pay1_apply (j : S8x128.Idx) : k0_pay1 (F := Ideal) j = 0 := by
  unfold k0_pay1
  simp only [shapeCast_self]
  exact Ideal.ofBits_zero_f32

/-- A sum along the leading axis of a 1024 x 8 x 128 array, at (b, l): the sum over a of the entry (a, b, l). -/
theorem sum_groups (v : FVec Ideal S1024x8x128 .f32) (h : S1024x8x128.Reduces [0] S8x128) (hφ : FKind.Formats .f32)
    (hacc : (0x00000000#32 : BitVec 32) = FKind.add.neutral .f32 hφ) (b : Fin 8) (l : Fin 128) :
    multiReduction .add [0] S8x128 v 0x00000000#32 h hφ hacc (ix2 b l) = ∑ a : Fin 1024, v (ix3 a b l) := by
  refine (Ideal.multiReduction_add_single v _ h hφ hacc (ix2 b l)).trans ?_
  exact Finset.sum_congr rfl fun a _ => congrArg v
    (funext fun d => match d with | ⟨0, _⟩ => rfl | ⟨1, _⟩ => rfl | ⟨2, _⟩ => rfl)

/-- A sum along the lanes of an 8 x 128 array, at sublane b: the sum over l of the entry (b, l). -/
theorem sum_lanes (v : FVec Ideal S8x128 .f32) (h : S8x128.Reduces [1] S8) (hφ : FKind.Formats .f32)
    (hacc : (0x00000000#32 : BitVec 32) = FKind.add.neutral .f32 hφ) (b : Fin 8) :
    multiReduction .add [1] S8 v 0x00000000#32 h hφ hacc (ix1 b) = ∑ l : Fin 128, v (ix2 b l) := by
  refine (Ideal.multiReduction_add_single v _ h hφ hacc (ix1 b)).trans ?_
  exact Finset.sum_congr rfl fun l _ => congrArg v
    (funext fun d => match d with | ⟨0, _⟩ => rfl | ⟨1, _⟩ => rfl)

/-- A sum down the one column of an 8 x 1 array: the sum over b of the entry (b, 0). -/
theorem sum_sublanes (v : FVec Ideal S8x1 .f32) (h : S8x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ b : Fin 8, v (ix2 b (0 : Fin 1)) := by
  refine (Ideal.multiReduction_add_single v _ h hφ hacc (ix1 u)).trans ?_
  exact Finset.sum_congr rfl fun b _ => congrArg v
    (funext fun d => match d with | ⟨0, _⟩ => rfl | ⟨1, _⟩ => Fin.ext (by have := u.isLt; show u.val = 0; omega))

/-- The block of cosines viewed as 1024 x 8 x 128: entry (a, b, l) is the block's entry at row 8a + b, lane l. -/
theorem groups_apply {α : Type} (x : S8192x128.Idx → α) (h : S8192x128.ShapeCasts S1024x8x128) (a : Fin 1024) (b : Fin 8)
    (l : Fin 128) : shapeCast S1024x8x128 x h (ix3 a b l) = x (ix2 (rowOf a b) l) :=
  shapeCast_apply x h (ix3 a b l) (ix2 (rowOf a b) l) (by
    rw [Shape.rowMajor_val_two, Shape.rowMajor_val_three]
    show (a.val * 8 + b.val) * 128 + l.val = (a.val * 8 + b.val) * 128 + l.val
    rfl)

/-- The accumulator update at sublane b, lane l. -/
theorem pay2_apply (v3 v5 : Vec Ideal S8192x128 .f32) (v10 : Vec Ideal S8x128 .f32) (b : Fin 8) (l : Fin 128) :
    k0_pay2 (F := Ideal) v3 v5 v10 (ix2 b l)
      = v10 (ix2 b l) + ∑ a : Fin 1024, Ideal.cos (v3 (ix2 (rowOf a b) l) * v5 (ix2 (rowOf a b) l)) := by
  unfold k0_pay2
  simp only [shapeCast_self]
  refine congrArg (v10 (ix2 b l) + ·) ?_
  refine (sum_groups _ _ _ _ b l).trans ?_
  exact Finset.sum_congr rfl fun a _ => groups_apply _ _ a b l

/-- The output cell's one entry: the total of the accumulator, lanes first, then sublanes. -/
theorem pay3_apply (v19 : Vec Ideal S8x128 .f32) (j : S1x1x1.Idx) :
    k0_pay3 (F := Ideal) v19 j = ∑ b : Fin 8, ∑ l : Fin 128, v19 (ix2 b l) := by
  unfold k0_pay3
  have h0 : (j 0).val < 1 := (j 0).isLt
  have h1 : (j 1).val < 1 := (j 1).isLt
  have h2 : (j 2).val < 1 := (j 2).isLt
  refine (shapeCast_apply _ _ j (ix2 (0 : Fin 1) (0 : Fin 1)) (by
    rw [Shape.rowMajor_val_two, Shape.rowMajor_val_three]
    show (0 * 1 + 0 : ℕ) = ((j 0).val * 1 + (j 1).val) * 1 + (j 2).val
    omega)).trans ?_
  refine (shapeCast_apply _ _ (ix2 (0 : Fin 1) (0 : Fin 1)) (ix1 (0 : Fin 1)) (by
    rw [Shape.rowMajor_val_one, Shape.rowMajor_val_two]; rfl)).trans ?_
  refine (sum_sublanes _ _ _ _ 0).trans ?_
  refine Finset.sum_congr rfl fun b _ => ?_
  refine (shapeCast_apply _ _ (ix2 b (0 : Fin 1)) (ix1 b) (by
    rw [Shape.rowMajor_val_one, Shape.rowMajor_val_two]
    show b.val = b.val * 1 + 0
    omega)).trans ?_
  exact sum_lanes _ _ _ _ b

end Cert.KernelIdeal.Payload

end
-- ==== Proof.SumRegroup.lean ====
/-
  Regrouping a sum over the 2^25 positions of a flat array.

  A position j < 2^25 is written uniquely as
      j = (((q * 16 + i) * 8192) + (a * 8 + b)) * 128 + l
  with q < 2 (which half of the rows), i < 16 (which block of 8192 rows inside the half), a < 1024 (which group of
  eight rows inside the block), b < 8 (which row of the group) and l < 128 (which lane).  In a commutative monoid a sum
  over all positions is therefore the iterated sum over the five digits, in whatever order they are nested; the order
  stated here is q, b, l outermost and i, a innermost: per half, per row-of-group and lane, the sum over blocks and
  groups.  Nothing here depends on what is being summed.
-/
import Idealize.ShloMosaic.Lib.ValueIdx

noncomputable section

open scoped BigOperators

namespace Cert.SumRegroup

open Idealize.ShloMosaic Idealize.ShloMosaic.ValueIdx

/-- The flat position with digits (q, i, a, b, l). -/
def pos (q : Fin 2) (i : Fin 16) (a : Fin 1024) (b : Fin 8) (l : Fin 128) : Fin 33554432 :=
  ⟨((q.val * 16 + i.val) * 8192 + (a.val * 8 + b.val)) * 128 + l.val, by
    have := q.isLt; have := i.isLt; have := a.isLt; have := b.isLt; have := l.isLt; omega⟩

theorem pos_val (q : Fin 2) (i : Fin 16) (a : Fin 1024) (b : Fin 8) (l : Fin 128) :
    (pos q i a b l).val = ((q.val * 16 + i.val) * 8192 + (a.val * 8 + b.val)) * 128 + l.val := rfl

/-- The digits in the order the sums are nested. -/
abbrev Digits := Fin 2 × Fin 8 × Fin 128 × Fin 16 × Fin 1024

/-- A tuple of digits to its position. -/
def ofDigits (p : Digits) : Fin 33554432 := pos p.1 p.2.2.2.1 p.2.2.2.2 p.2.1 p.2.2.1

/-- Distinct digits give distinct positions: the representation is a mixed-radix numeral. -/
theorem ofDigits_injective : Function.Injective ofDigits := by
  rintro ⟨q, b, l, i, a⟩ ⟨q', b', l', i', a'⟩ h
  have h' : ((q.val * 16 + i.val) * 8192 + (a.val * 8 + b.val)) * 128 + l.val
      = ((q'.val * 16 + i'.val) * 8192 + (a'.val * 8 + b'.val)) * 128 + l'.val := congrArg Fin.val h
  have := q.isLt; have := i.isLt; have := a.isLt; have := b.isLt; have := l.isLt
  have := q'.isLt; have := i'.isLt; have := a'.isLt; have := b'.isLt; have := l'.isLt
  have hq : q.val = q'.val := by omega
  have hi : i.val = i'.val := by omega
  have ha : a.val = a'.val := by omega
  have hb : b.val = b'.val := by omega
  have hl : l.val = l'.val := by omega
  exact Prod.ext (Fin.ext hq) (Prod.ext (Fin.ext hb) (Prod.ext (Fin.ext hl) (Prod.ext (Fin.ext hi) (Fin.ext ha))))

/-- There are as many tuples of digits as positions, so every position has digits. -/
theorem ofDigits_bijective : Function.Bijective ofDigits :=
  (Fintype.bijective_iff_injective_and_card ofDigits).mpr ⟨ofDigits_injective, by
    simp only [Fintype.card_prod, Fintype.card_fin]⟩

/-- A sum over all positions, regrouped digit by digit. -/
theorem sum_regroup {M : Type*} [AddCommMonoid M] (f : Fin 33554432 → M) :
    ∑ j, f j = ∑ q : Fin 2, ∑ b : Fin 8, ∑ l : Fin 128, ∑ i : Fin 16, ∑ a : Fin 1024, f (pos q i a b l) := by
  rw [← Fintype.sum_bijective ofDigits ofDigits_bijective (fun p => f (ofDigits p)) f (fun _ => rfl)]
  simp only [Fintype.sum_prod_type]
  rfl

/-- A rank-one index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-one index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.SumRegroup

end
-- ==== Proof.StepSums.lean ====
/-
  The accumulator as a sum, and the total as the flat sum.

  Write f(k) = cos (x k * w k) for the flat arrays x, w of 2^25 entries.  Point n of the 32 (n = 16q + i: half q,
  step i) adds to the 8 x 128 accumulator, at (b, l), the sum over the 1024 row groups a of f at the position with
  digits (q, i, a, b, l).  The accumulator is zeroed at the first step of a half, so after point n it holds, at (b, l),
  the sum of those contributions over the points of n's half up to n (`accAfter`; two recurrences, one for a first step
  and one for a later step, are all the kernel's induction needs).  After the last step of half q that is the sum over
  all sixteen steps, and adding its 8 x 128 entries over both halves visits every position exactly once: the flat sum.
  The only laws used are commutativity of the product and regrouping of a finite sum in a commutative monoid, which
  hold on the extended reals without any finiteness assumption.
-/
import proofs.«173688_j19258633355996_2_alg».proof.Proof.SumRegroup
import Idealize.ShloMosaic.PureOps.Ideal

noncomputable section

open scoped BigOperators

namespace Cert.StepSums

open Idealize.ShloMosaic Idealize.ShloMosaic.ValueIdx Cert.SumRegroup

/-- A flat array of 2^25 extended reals. -/
abbrev Flat := (⟨1, ![33554432]⟩ : Shape).Idx → EReal

/-- A flat array read at a natural position (0 past the end, which no position used below reaches). -/
def rd (x : Flat) (k : ℕ) : EReal := if h : k < 33554432 then x (ix1 ⟨k, h⟩) else 0

theorem rd_of_lt (x : Flat) (k : ℕ) (h : k < 33554432) : rd x k = x (ix1 ⟨k, h⟩) := dif_pos h

/-- The position of row group a, row b, lane l in the block of point n. -/
def posN (n : ℕ) (a : Fin 1024) (b : Fin 8) (l : Fin 128) : ℕ := (n * 8192 + (a.val * 8 + b.val)) * 128 + l.val

/-- What point n adds to the accumulator at (b, l). -/
def stepSum (x w : Flat) (n : ℕ) (b : Fin 8) (l : Fin 128) : EReal :=
  ∑ a : Fin 1024, Ideal.cos (rd x (posN n a b l) * rd w (posN n a b l))

/-- The accumulator at (b, l) after point n: the contributions of the points of n's half, up to n. -/
def accAfter (x w : Flat) (n : ℕ) (b : Fin 8) (l : Fin 128) : EReal :=
  ∑ k ∈ Finset.range (n % 16 + 1), stepSum x w (n - n % 16 + k) b l

/-- At the first point of a half the accumulator is that point's contribution. -/
theorem accAfter_first (x w : Flat) (n : ℕ) (h : n % 16 = 0) (b : Fin 8) (l : Fin 128) :
    accAfter x w n b l = stepSum x w n b l := by
  unfold accAfter
  rw [h, Finset.sum_range_one]
  rfl

/-- At a later point it is the accumulator after the point before, plus the point's contribution. -/
theorem accAfter_next (x w : Flat) (n : ℕ) (h : ¬n % 16 = 0) (b : Fin 8) (l : Fin 128) :
    accAfter x w n b l = accAfter x w (n - 1) b l + stepSum x w n b l := by
  unfold accAfter
  have e1 : (n - 1) % 16 + 1 = n % 16 := by omega
  have e2 : n - 1 - (n - 1) % 16 = n - n % 16 := by omega
  have e3 : n - n % 16 + n % 16 = n := by omega
  rw [Finset.sum_range_succ, e1, e2, e3]

/-- After the last point of half q it is the sum over the half's sixteen points. -/
theorem accAfter_last (x w : Flat) (q : Fin 2) (b : Fin 8) (l : Fin 128) :
    accAfter x w (q.val * 16 + 15) b l = ∑ i : Fin 16, stepSum x w (q.val * 16 + i.val) b l := by
  unfold accAfter
  have e1 : (q.val * 16 + 15) % 16 + 1 = 16 := by omega
  have e2 : q.val * 16 + 15 - (q.val * 16 + 15) % 16 = q.val * 16 := by omega
  rw [e1, e2, Finset.sum_range]

/-- The positions used are positions of the flat arrays: the digits' position. -/
theorem rd_posN (x : Flat) (q : Fin 2) (i : Fin 16) (a : Fin 1024) (b : Fin 8) (l : Fin 128) :
    rd x (posN (q.val * 16 + i.val) a b l) = x (ix1 (pos q i a b l)) :=
  rd_of_lt x _ (pos q i a b l).isLt

/-- The total of the two halves' final accumulators is the flat sum of cos (w k * x k). -/
theorem total_eq (x w : Flat) :
    ∑ q : Fin 2, ∑ b : Fin 8, ∑ l : Fin 128, accAfter x w (q.val * 16 + 15) b l
      = ∑ j : (⟨1, ![33554432]⟩ : Shape).Idx, Ideal.cos (w j * x j) := by
  rw [sum_idx1, sum_regroup]
  refine Finset.sum_congr rfl fun q _ => Finset.sum_congr rfl fun b _ => Finset.sum_congr rfl fun l _ => ?_
  rw [accAfter_last]
  refine Finset.sum_congr rfl fun i _ => Finset.sum_congr rfl fun a _ => ?_
  rw [rd_posN, rd_posN, mul_comm]

end Cert.StepSums

end
-- ==== Proof.Blocks.lean ====
/-
  The kernel's input blocks as entries of the flat argument arrays.

  Before the call each flat array of 2^25 entries is viewed as 262144 rows of 128 lanes: entry (R, l) of the view is
  entry 128 R + l of the flat array.  The block the kernel is handed at point t is rows 8192 t .. 8192 t + 8191 of that
  view (the block index is the point's own number: half * 16 + step), so its entry (r, l) is the flat entry
  (8192 t + r) * 128 + l.  The same holds for both operands.
-/
import proofs.«173688_j19258633355996_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic
import proofs.«173688_j19258633355996_2_alg».proof.Proof.StepSums

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.StepSums

variable (m : (ℓ : Loc nD τ sig) → Buf (Elt Ideal) ℓ)

/-- The grid has 32 points. -/
theorem point_lt (t : Fin cfg0.N) : t.val < 32 := lt_of_lt_of_eq t.isLt (show cfg0.N = 32 from N_0)

/-- The region finds, as its first operand, the first argument viewed as 262144 x 128, -/
theorem V_v0 (c : Dev nD) :
    (V m c main_v0 : S262144x128.Idx → EReal)
      = shapeCast S262144x128 (m ((c : Thread nD τ).loc main_arg0)) shapeCasts_S33554432_S262144x128 := by
  show StableHlo.after hostOps0 (fun b => m (c, b)) (Proc.devRef .tc main_v0) = _
  after_results
  rfl

/-- and as its second operand the second argument viewed the same way. -/
theorem V_v1 (c : Dev nD) :
    (V m c main_v1 : S262144x128.Idx → EReal)
      = shapeCast S262144x128 (m ((c : Thread nD τ).loc main_arg1)) shapeCasts_S33554432_S262144x128 := by
  show StableHlo.after hostOps0 (fun b => m (c, b)) (Proc.devRef .tc main_v1) = _
  after_results
  rfl

/-- Entry (R, l) of the 262144 x 128 view is the flat entry 128 R + l. -/
theorem rows_apply (x : Flat) (h : S33554432.ShapeCasts S262144x128) (R : Fin 262144) (l : Fin 128) :
    shapeCast S262144x128 x h (ix2 R l) = rd x (R.val * 128 + l.val) := by
  have hlt : R.val * 128 + l.val < 33554432 := by have := R.isLt; have := l.isLt; omega
  rw [rd_of_lt x _ hlt]
  exact shapeCast_apply x h (ix2 R l) (ix1 ⟨R.val * 128 + l.val, hlt⟩) (by
    rw [Shape.rowMajor_val_one, Shape.rowMajor_val_two]; rfl)

/-- Both operands' block index at point t is (t, 0): decided over the 32 points. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry (r, l) of the first operand's block at point t is the first argument's flat entry (8192 t + r) * 128 + l. -/
theorem block0_apply (c : Dev nD) (t : Fin cfg0.N) (r : Fin 8192) (l : Fin 128) :
    (iblk m c 0 t : Vec Ideal S8192x128 .f32) (ix2 r l)
      = rd (m ((c : Thread nD τ).loc main_arg0)) ((t.val * 8192 + r.val) * 128 + l.val) := by
  have ht := point_lt t
  have hR : t.val * 8192 + r.val < 262144 := by have := r.isLt; omega
  obtain ⟨e0, e1, -, -⟩ := block_index t
  unfold iblk
  rw [View.read_apply]
  show V m c main_v0 (((cfg0.win 0).blk t).view.emb (ix2 r l)) = _
  have hemb : ((cfg0.win 0).blk t).view.emb (ix2 r l) = (ix2 ⟨t.val * 8192 + r.val, hR⟩ l : S262144x128.Idx) := by
    funext a; apply Fin.ext
    match a with
    | ⟨0, _⟩ => show win0_0.index t (0 : Fin 2) * 8192 + 1 * r.val = t.val * 8192 + r.val; rw [e0]; omega
    | ⟨1, _⟩ => show win0_0.index t (1 : Fin 2) * 128 + 1 * l.val = l.val; rw [e1]; omega
  rw [hemb, V_v0]
  exact rows_apply _ _ ⟨t.val * 8192 + r.val, hR⟩ l

/-- The same for the second operand and the second argument. -/
theorem block1_apply (c : Dev nD) (t : Fin cfg0.N) (r : Fin 8192) (l : Fin 128) :
    (iblk m c 1 t : Vec Ideal S8192x128 .f32) (ix2 r l)
      = rd (m ((c : Thread nD τ).loc main_arg1)) ((t.val * 8192 + r.val) * 128 + l.val) := by
  have ht := point_lt t
  have hR : t.val * 8192 + r.val < 262144 := by have := r.isLt; omega
  obtain ⟨-, -, e0, e1⟩ := block_index t
  unfold iblk
  rw [View.read_apply]
  show V m c main_v1 (((cfg0.win 1).blk t).view.emb (ix2 r l)) = _
  have hemb : ((cfg0.win 1).blk t).view.emb (ix2 r l) = (ix2 ⟨t.val * 8192 + r.val, hR⟩ l : S262144x128.Idx) := by
    funext a; apply Fin.ext
    match a with
    | ⟨0, _⟩ => show win0_1.index t (0 : Fin 2) * 8192 + 1 * r.val = t.val * 8192 + r.val; rw [e0]; omega
    | ⟨1, _⟩ => show win0_1.index t (1 : Fin 2) * 128 + 1 * l.val = l.val; rw [e1]; omega
  rw [hemb, V_v1]
  exact rows_apply _ _ ⟨t.val * 8192 + r.val, hR⟩ l

end Cert.KernelIdeal.Blocks

end
-- ==== Proof.Accum.lean ====
/-
  The accumulator, point by point, over the extended reals.

  Reading the kernel's update at an index turns the per-point description into arithmetic: at (b, l) a point's update
  of an accumulator value s is s plus the point's contribution `stepSum` (the sum over row groups of the cosines of the
  products at the point's positions).  By induction over the points the accumulator after point n is `accAfter` — at a
  half's first point the zero block contributes 0, later points add to what the point before left — and the output
  cell after a half's last point is the sum of that accumulator over its 8 x 128 entries.
-/
import proofs.«173688_j19258633355996_2_alg».proof.Proof.PointValues
import proofs.«173688_j19258633355996_2_alg».proof.Proof.Payload
import proofs.«173688_j19258633355996_2_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.PointValues
open Cert.KernelIdeal.Payload Cert.KernelIdeal.Blocks Cert.StepSums

variable (m : (ℓ : Loc nD τ sig) → Buf (Elt Ideal) ℓ)

/-- The two flat argument arrays on core c. -/
abbrev argX (c : Dev nD) : Flat := m ((c : Thread nD τ).loc main_arg0)
abbrev argW (c : Dev nD) : Flat := m ((c : Thread nD τ).loc main_arg1)

/-- One update at (b, l), for blocks whose entries are the flat arrays' entries at point n's positions: the old
    entry plus point n's contribution. -/
theorem update_apply (X0 X1 : Vec Ideal S8192x128 .f32) (s : Vec Ideal S8x128 .f32) (x w : Flat) (n : ℕ)
    (hX0 : ∀ (r : Fin 8192) (l : Fin 128), X0 (ix2 r l) = rd x ((n * 8192 + r.val) * 128 + l.val))
    (hX1 : ∀ (r : Fin 8192) (l : Fin 128), X1 (ix2 r l) = rd w ((n * 8192 + r.val) * 128 + l.val))
    (b : Fin 8) (l : Fin 128) :
    k0_pay2 (F := Ideal) X0 X1 s (ix2 b l) = s (ix2 b l) + stepSum x w n b l := by
  rw [pay2_apply]
  refine congrArg (s (ix2 b l) + ·) ?_
  unfold stepSum
  refine Finset.sum_congr rfl fun a _ => ?_
  rw [hX0, hX1]
  rfl

/-- The update at point t, whatever the accumulator held. -/
theorem update_at (c : Dev nD) (t : Fin cfg0.N) (s : Vec Ideal S8x128 .f32) (b : Fin 8) (l : Fin 128) :
    k0_pay2 (F := Ideal) (iblk m c 0 t) (iblk m c 1 t) s (ix2 b l)
      = s (ix2 b l) + stepSum (argX m c) (argW m c) t.val b l :=
  update_apply (iblk m c 0 t) (iblk m c 1 t) s (argX m c) (argW m c) t.val
    (fun r l => block0_apply m c t r l) (fun r l => block1_apply m c t r l) b l

/-- The zero block's entries are 0. -/
theorem zeroAcc_apply (j : S8x128.Idx) : (zeroAcc : Vec Ideal S8x128 .f32) j = 0 := pay1_apply j

/-- THE ACCUMULATOR after point n, entry by entry. -/
theorem acc_eq (c : Dev nD) : ∀ (n : ℕ) (hn : n < cfg0.N) (b : Fin 8) (l : Fin 128),
    (outsAt0 m c n hn).2 (ix2 b l) = accAfter (argX m c) (argW m c) n b l := by
  intro n
  induction n with
  | zero =>
    intro hn b l
    have e := acc_first m c ⟨0, hn⟩ (Nat.zero_mod 16) (by show ¬(0 : ℕ) % 16 = 15; omega)
    refine (congrFun e (ix2 b l)).trans ?_
    refine (update_at m c ⟨0, hn⟩ zeroAcc b l).trans ?_
    show zeroAcc (ix2 b l) + stepSum (argX m c) (argW m c) 0 b l = _
    rw [zeroAcc_apply, zero_add, accAfter_first _ _ 0 (Nat.zero_mod 16)]
  | succ n ih =>
    intro hn b l
    have hN : n + 1 < 32 := lt_of_lt_of_eq hn (show cfg0.N = 32 from N_0)
    by_cases h0 : (n + 1) % 16 = 0
    · have h1 : ¬(n + 1) % 16 = 15 := by omega
      have e := acc_first m c ⟨n + 1, hn⟩ h0 h1
      refine (congrFun e (ix2 b l)).trans ?_
      refine (update_at m c ⟨n + 1, hn⟩ zeroAcc b l).trans ?_
      show zeroAcc (ix2 b l) + stepSum (argX m c) (argW m c) (n + 1) b l = _
      rw [zeroAcc_apply, zero_add, accAfter_first _ _ (n + 1) h0]
    · have e : (outsAt0 m c (n + 1) hn).2
          = k0_pay2 (iblk m c 0 ⟨n + 1, hn⟩) (iblk m c 1 ⟨n + 1, hn⟩) (outsAt0 m c n (Nat.lt_of_succ_lt hn)).2 := by
        by_cases h1 : (n + 1) % 16 = 15
        · exact acc_last m c ⟨n + 1, hn⟩ h0 h1
        · exact acc_middle m c ⟨n + 1, hn⟩ h0 h1
      refine (congrFun e (ix2 b l)).trans ?_
      refine (update_at m c ⟨n + 1, hn⟩ (outsAt0 m c n (Nat.lt_of_succ_lt hn)).2 b l).trans ?_
      show (outsAt0 m c n (Nat.lt_of_succ_lt hn)).2 (ix2 b l) + stepSum (argX m c) (argW m c) (n + 1) b l = _
      rw [ih (Nat.lt_of_succ_lt hn) b l, accAfter_next _ _ (n + 1) h0]
      rfl

/-- THE OUTPUT CELL after the last point of a half: the total of the accumulator that point leaves. -/
theorem cell_eq (c : Dev nD) (t : Fin cfg0.N) (h1 : t.val % 16 = 15) (j : S1x1x1.Idx) :
    (outsAt0 m c t.val t.isLt).1 j = ∑ b : Fin 8, ∑ l : Fin 128, accAfter (argX m c) (argW m c) t.val b l := by
  have h0 : ¬t.val % 16 = 0 := by omega
  rw [cell_last m c t h0 h1, pay3_apply]
  exact Finset.sum_congr rfl fun b _ => Finset.sum_congr rfl fun l _ => acc_eq m c t.val t.isLt b l

end Cert.KernelIdeal.Accum

end
-- ==== Proof.Tail.lean ====
/-
  The kernel program's lines after the call, of any output array.

  The call leaves a 2 x 1 x 1 array o, one cell per half.  The host views it as a vector of two, sums it from the
  initial value 0, adds 0 and divides by 2^25: the closing lines applied to 0 + (o at cell 0 + o at cell 1).
-/
import proofs.«173688_j19258633355996_2_alg».proof.Proof.Gen.KernelIdeal
import proofs.«173688_j19258633355996_2_alg».proof.Proof.SumRegroup
import proofs.«173688_j19258633355996_2_alg».proof.Proof.Closing
import Idealize.ShloMosaic.Lib.Pipeline.Value
import Idealize.ShloMosaic.PureOps.Ideal.Laws

noncomputable section

open scoped BigOperators
open Idealize.ShloMosaic Idealize.ShloMosaic.ValueIdx

namespace Cert.KernelIdeal.Tail

open Cert.KernelIdeal Cert.KernelIdeal.Gen Cert.Closing Cert.SumRegroup

/-- The host's lines after the call, applied to the call's output array. -/
def tailOf (o : S2x1x1.Idx → EReal) : S_.Idx → EReal :=
  Host.divf (F := Ideal) (addf (F := Ideal)
    (Host.reduceAdd (F := Ideal) (shapeCast S2 o shapeCasts_S2x1x1_S2) (constant (F := Ideal) S_ .f32 0x00000000#32) reducesTo_S2_S_d0 h_S_)
    (constant (F := Ideal) S_ .f32 0x00000000#32)) (constant (F := Ideal) S_ .f32 0x4C000000#32)

/-- The vector view of the output array: entry q is cell (q, 0, 0). -/
theorem cells_apply (o : S2x1x1.Idx → EReal) (h : S2x1x1.ShapeCasts S2) (q : Fin 2) :
    shapeCast S2 o h (ix1 q) = o (ix3 q (0 : Fin 1) (0 : Fin 1)) :=
  shapeCast_apply o h (ix1 q) (ix3 q (0 : Fin 1) (0 : Fin 1)) (by
    rw [Shape.rowMajor_val_one, Shape.rowMajor_val_three]
    show (q.val * 1 + 0) * 1 + 0 = q.val
    omega)

/-- The host's sum of a vector of two from the initial value 0. -/
theorem sum_two (y : S2.Idx → EReal) (i : S_.Idx) :
    Host.reduceAdd (F := Ideal) (φ := .f32) y (constant (F := Ideal) S_ .f32 0x00000000#32) reducesTo_S2_S_d0 h_S_ i
      = Ideal.ofBits .f32 0x00000000#32 + ∑ q : Fin 2, y (ix1 q) := by
  simp only [Host.reduceAdd, Ideal.hostReduceAdd_def]
  refine (Ideal.hostReduceAdd_total reducesTo_S2_S_d0 (fun b => b.elim0) y _ i).trans ?_
  rw [sum_idx1]
  rfl

/-- The lines after the call are the closing lines of 0 + the sum of the two cells. -/
theorem tailOf_eq (o : S2x1x1.Idx → EReal) :
    tailOf o = closing (Ideal.ofBits .f32 0x00000000#32 + ∑ q : Fin 2, o (ix3 q (0 : Fin 1) (0 : Fin 1))) := by
  funext i
  have e : Host.reduceAdd (F := Ideal) (φ := .f32) (shapeCast S2 o shapeCasts_S2x1x1_S2)
        (constant (F := Ideal) S_ .f32 0x00000000#32) reducesTo_S2_S_d0 h_S_ i
      = Ideal.ofBits .f32 0x00000000#32 + ∑ q : Fin 2, o (ix3 q (0 : Fin 1) (0 : Fin 1)) := by
    rw [sum_two]
    exact congrArg (Ideal.ofBits .f32 0x00000000#32 + ·) (Finset.sum_congr rfl fun q _ => cells_apply o _ q)
  show FloatOps.hostDivf (F := Ideal) (φ := .f32) (FloatOps.addf (F := Ideal) (φ := .f32)
      (Host.reduceAdd (F := Ideal) (φ := .f32) (shapeCast S2 o shapeCasts_S2x1x1_S2)
        (constant (F := Ideal) S_ .f32 0x00000000#32) reducesTo_S2_S_d0 h_S_ i)
      (Ideal.ofBits .f32 0x00000000#32)) (Ideal.ofBits .f32 0x4C000000#32) = _
  rw [e]
  rfl

end Cert.KernelIdeal.Tail

end
-- ==== Proof.KernelValue.lean ====
/-
  The kernel program's result.

  The output array has one cell per half of the rows.  Cell q is written back once, after point 16 q + 15 (the last
  step of half q), and then holds the total of the accumulator that point leaves: the sum over the 8 x 128 entries of
  `accAfter` at that point.  Every cell is covered by exactly that point's block, so after the run the array is those
  two totals.  The host then sums the two cells from 0, adds 0 and divides by 2^25; since the two totals together are
  the flat sum of cos (w j * x j) over all 2^25 positions, the program ends at the closing lines of 0 + that sum, with
  its arguments unchanged.
-/
import proofs.«173688_j19258633355996_2_alg».proof.Proof.Accum
import proofs.«173688_j19258633355996_2_alg».proof.Proof.Tail

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Accum Cert.KernelIdeal.Tail Cert.StepSums Cert.Closing

variable (m : (ℓ : Loc nD τ sig) → Buf (Elt Ideal) ℓ) (ρ : Dev nD → PrngReg)

/-- The total of the accumulator after the last point of half q. -/
def halfTotal (x w : Flat) (q : ℕ) : EReal := ∑ b : Fin 8, ∑ l : Fin 128, accAfter x w (q * 16 + 15) b l

/-- The output array after the run: cell (q, 0, 0) holds half q's total. -/
def cells (c : Dev nD) : S2x1x1.Idx → EReal := fun j => halfTotal (argX m c) (argW m c) (j 0).val

/-- The output's block index at point t is (t / 16, 0, 0): decided over the 32 points. -/
theorem out_index : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- What a point that writes the output back writes is its block of `cells`. -/
theorem flushed_eq (c : Dev nD) (t : Fin cfg0.N) (hf : (cfg0.win 2).flush t = true) :
    (dats m 0 c).flushed 2 t = ((cfg0.win 2).blk t).view.read (Elt Ideal) (cells m c) := by
  have h15 : t.val % 16 = 15 := (flush0_2 t).mp hf
  obtain ⟨e0, -, -⟩ := out_index t
  show (cfg0.win 2).cut (grid0.coords t) ((dats m 0 c).after 2 t) = _
  rw [after0_2]
  funext j
  rw [View.read_apply]
  show (outsAt0 m c t.val t.isLt).1 j = cells m c (((cfg0.win 2).blk t).view.emb j)
  rw [cell_eq m c t h15 j]
  have hj : (j 0).val < 1 := (j 0).isLt
  have he : ((((cfg0.win 2).blk t).view.emb j) 0).val * 16 + 15 = t.val := by
    show (win0_2.index t (0 : Fin 3) * 1 + 1 * (j 0).val) * 16 + 15 = t.val
    rw [e0]; omega
  show _ = halfTotal (argX m c) (argW m c) ((((cfg0.win 2).blk t).view.emb j) 0).val
  unfold halfTotal
  rw [he]

/-- An index of the output array is in point t's block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- Every cell is in the block of the last point of its half, which writes back. -/
theorem cover (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 32 := N_0
  obtain ⟨t, ht⟩ : ∃ t : Fin cfg0.N, t.val = (i 0).val * 16 + 15 := ⟨⟨(i 0).val * 16 + 15, by omega⟩, rfl⟩
  obtain ⟨e0, e1, e2⟩ := out_index t
  refine ⟨t, (flush0_2 t).mpr (by omega), ?_⟩
  rw [mem_blk]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 1 ≤ (i 2).val ∧ (i 2).val < win0_2.index t (2 : Fin 3) * 1 + 1
    rw [e2]; omega

/-- THE OUTPUT ARRAY after the run. -/
theorem final_cells (c : Dev nD) : (dats m 0 c).arrAt 2 cfg0.N = cells m c :=
  (dats m 0 c).arrAt_eq_of_cover 2 (cells m c) (flushed_eq m c) cover

/-- The program's result on core c: the closing lines of 0 + the flat sum of the cosines of the products. -/
def result (c : Dev nD) : S_.Idx → EReal :=
  closing (Ideal.ofBits .f32 0x00000000#32 + ∑ j : S33554432.Idx, Ideal.cos (argW m c j * argX m c j))

/-- The two cells together are the flat sum. -/
theorem cells_sum (c : Dev nD) :
    ∑ q : Fin 2, cells m c (ix3 q (0 : Fin 1) (0 : Fin 1)) = ∑ j : S33554432.Idx, Ideal.cos (argW m c j * argX m c j) :=
  total_eq (argX m c) (argW m c)

/-- The lines after the call leave the result. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v2)
      = cells m c := (Pipeline.withArrays_arr spec0 launch0.win.arr_inj c _ _ 2).trans (final_cells m c)
  rw [e]
  refine Eq.trans (b := tailOf (cells m c)) rfl ?_
  rw [tailOf_eq, cells_sum]
  rfl

/-- THE RUN, read: the program ends with its result at `result` and its arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelValue

end
-- ==== Proof.lean ====
/- The proof of `Cert.Claim`: the kernel program and the reference compute one number.

   Both programs take two flat arrays x, w of 2^25 finite floats and return (s + 0) / 2^25, where s is 0 plus the sum
   of cos (x j * w j) over every position j.  The reference forms the products w j * x j, takes cosines and sums them
   flat.  The kernel views the arrays as 262144 rows of 128 lanes and walks them in 32 blocks of 8192 rows, sixteen per
   half; in each block it sums the cosines over the 1024 groups of eight rows into an 8 x 128 accumulator that it keeps
   across the sixteen blocks of a half, and after a half's last block it totals the accumulator (lanes, then sublanes)
   into the half's output cell; the host adds the two cells.  Over the extended reals every float operation is exact
   and a change of format is the identity, so the two results differ only by the order of the factors in each product
   and by the grouping of one finite sum: the product commutes and a finite sum in a commutative monoid may be regrouped
   along the mixed-radix digits of the position (Proof/SumRegroup.lean, Proof/StepSums.lean).  Neither law needs the
   inputs to be finite, so the precondition is not used.

   The three frame claims are the generated frame runs (the reference's is its generated run with the result
   forgotten); the kernel's idealization rewrote nothing, so `preserves` is `True`; the kernel's value is read off its
   generated frame run (Proof/KernelPieces.lean to Proof/KernelValue.lean) and the reference's off its generated run
   (Proof/RefRead.lean). -/
import proofs.«173688_j19258633355996_2_alg».proof.Defs
import proofs.«173688_j19258633355996_2_alg».proof.Proof.Gen.Kernel
import proofs.«173688_j19258633355996_2_alg».proof.Proof.Gen.Kernel.Skeleton
import proofs.«173688_j19258633355996_2_alg».proof.Proof.Gen.Kernel.Launch
import proofs.«173688_j19258633355996_2_alg».proof.Proof.Gen.Kernel.Points
import proofs.«173688_j19258633355996_2_alg».proof.Proof.Gen.Kernel.Frame
import proofs.«173688_j19258633355996_2_alg».proof.Proof.Gen.KernelIdeal
import proofs.«173688_j19258633355996_2_alg».proof.Proof.Gen.KernelIdeal.Skeleton
import proofs.«173688_j19258633355996_2_alg».proof.Proof.Gen.KernelIdeal.Launch
import proofs.«173688_j19258633355996_2_alg».proof.Proof.Gen.KernelIdeal.Points
import proofs.«173688_j19258633355996_2_alg».proof.Proof.Gen.KernelIdeal.Frame
import proofs.«173688_j19258633355996_2_alg».proof.Proof.Gen.ReferenceIdeal
import proofs.«173688_j19258633355996_2_alg».proof.Proof.Gen.Pre_finite_inputs
import proofs.«173688_j19258633355996_2_alg».proof.Proof.RefRead
import proofs.«173688_j19258633355996_2_alg».proof.Proof.KernelValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the closing lines of 0 + the flat sum of
    cos (w j * x j): the kernel program by its run read back, the reference by its run's term in closed form. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
